-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x256 : Shape := ⟨2, ![16, 256]⟩
abbrev S1024x1024 : Shape := ⟨2, ![1024, 1024]⟩
abbrev S1024 : Shape := ⟨1, ![1024]⟩
abbrev S128x256 : Shape := ⟨2, ![128, 256]⟩
abbrev S128 : Shape := ⟨1, ![128]⟩
abbrev S16384x128 : Shape := ⟨2, ![16384, 128]⟩
abbrev S16384 : Shape := ⟨1, ![16384]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg7 : FVec F S16384 .f32) (main_v33 : IVec S_ 1) : IVec S_ 1 :=
  let main_v34 : FVec F S16384 .f32 := Host.absf main_arg7
  let main_cst_12 : FVec F S_ .f32 := constant S_ .f32 0x7F800000#32
  let main_v35 : FVec F S16384 .f32 := broadcastInDim S16384 ![] bcast_S_S16384 main_cst_12
  let main_v36 : IVec S16384 1 := cmpf .olt main_v34 main_v35
  let main_c_13 : IVec S_ 1 := constantI S_ 1 1#1
  let main_v37 : IVec S_ 1 := (fun x v => Host.reduce IntOp.andi x v reducesTo_S16384_S_d0 h_S_) main_v36 main_c_13
  let main_v38 : IVec S_ 1 := andi main_v33 main_v37
  main_v38

def fn_part1 {F : FTy → Type} [FloatOps F] (main_arg4 : FVec F S128x256 .f32) (main_arg5 : FVec F S128 .f32) (main_arg6 : FVec F S16384x128 .f32) (main_arg7 : FVec F S16384 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16384x128 .f32 := Host.absf main_arg6
  let main_cst_10 : FVec F S_ .f32 := constant S_ .f32 0x7F800000#32
  let main_v30 : FVec F S16384x128 .f32 := broadcastInDim S16384x128 ![] bcast_S_S16384x128 main_cst_10
  let main_v31 : IVec S16384x128 1 := cmpf .olt main_v29 main_v30
  let main_c_11 : IVec S_ 1 := constantI S_ 1 1#1
  let main_v32 : IVec S_ 1 := (fun x v => Host.reduce IntOp.andi x v reducesTo_S16384x128_S_d0_1 h_S_) main_v31 main_c_11
  let main_v33 : IVec S_ 1 := andi main_v28 main_v32
  fn_part2 (F := F) main_arg7 main_v33

def fn {F : FTy → Type} [FloatOps F] (main_arg0 : FVec F S16x4096x1024 .f32) (main_arg1 : FVec F S16x256 .f32) (main_arg2 : FVec F S1024x1024 .f32) (main_arg3 : FVec F S1024 .f32) (main_arg4 : FVec F S128x256 .f32) (main_arg5 : FVec F S128 .f32) (main_arg6 : FVec F S16384x128 .f32) (main_arg7 : FVec F S16384 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x4096x1024 : Shape := ⟨3, ![16, 4096, 1024]⟩
abbrev S16x256 : Shape := ⟨2, ![16, 256]⟩
abbrev S1024x1024 : Shape := ⟨2, ![1024, 1024]⟩
abbrev S1024 : Shape := ⟨1, ![1024]⟩
abbrev S128x256 : Shape := ⟨2, ![128, 256]⟩
abbrev S128 : Shape := ⟨1, ![128]⟩
abbrev S16384x128 : Shape := ⟨2, ![16384, 128]⟩
abbrev S16384 : Shape := ⟨1, ![16384]⟩
abbrev S256x128 : Shape := ⟨2, ![256, 128]⟩
abbrev S16x128 : Shape := ⟨2, ![16, 128]⟩
abbrev S1x128 : Shape := ⟨2, ![1, 128]⟩
abbrev S_ : Shape := ⟨0, ![]⟩
abbrev S128x16384 : Shape := ⟨2, ![128, 16384]⟩
abbrev S16x16384 : Shape := ⟨2, ![16, 16384]⟩
abbrev S1x16384 : Shape := ⟨2, ![1, 16384]⟩
abbrev S16x8192 : Shape := ⟨2, ![16, 8192]⟩
abbrev S16x8x1024 : Shape := ⟨3, ![16, 8, 1024]⟩
abbrev S16x1024x8 : Shape := ⟨3, ![16, 1024, 8]⟩
abbrev S1x1024x1024 : Shape := ⟨3, ![1, 1024, 1024]⟩
abbrev S1x1024x8 : Shape := ⟨3, ![1, 1024, 8]⟩
abbrev S1x8x1024 : Shape := ⟨3, ![1, 8, 1024]⟩
abbrev S1x1024 : Shape := ⟨2, ![1, 1024]⟩
abbrev S1024x8 : Shape := ⟨2, ![1024, 8]⟩
abbrev S8x1024 : Shape := ⟨2, ![8, 1024]⟩

abbrev nBuf : Space → Nat
  | .hbm => 38
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x256, .f32⟩
  | .hbm, ⟨2, _⟩ => ⟨S1024x1024, .f32⟩
  | .hbm, ⟨3, _⟩ => ⟨S1024, .f32⟩
  | .hbm, ⟨4, _⟩ => ⟨S128x256, .f32⟩
  | .hbm, ⟨5, _⟩ => ⟨S128, .f32⟩
  | .hbm, ⟨6, _⟩ => ⟨S16384x128, .f32⟩
  | .hbm, ⟨7, _⟩ => ⟨S16384, .f32⟩
  | .hbm, ⟨8, _⟩ => ⟨S256x128, .f32⟩
  | .hbm, ⟨9, _⟩ => ⟨S16x128, .f32⟩
  | .hbm, ⟨10, _⟩ => ⟨S1x128, .f32⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S_, .f32⟩
  | .hbm, ⟨19, _⟩ => ⟨S16x128, .f32⟩
  | .hbm, ⟨20, _⟩ => ⟨S16x128, .f32⟩
  | .hbm, ⟨21, _⟩ => ⟨S16x128, .f32⟩
  | .hbm, ⟨22, _⟩ => ⟨S128x16384, .f32⟩
  | .hbm, ⟨23, _⟩ => ⟨S16x16384, .f32⟩
  | .hbm, ⟨24, _⟩ => ⟨S1x16384, .f32⟩
  | .hbm, ⟨25, _⟩ => ⟨S16x16384, .f32⟩
  | .hbm, ⟨26, _⟩ => ⟨S16x16384, .f32⟩
  | .hbm, ⟨27, _⟩ => ⟨S16x8192, .f32⟩
  | .hbm, ⟨28, _⟩ => ⟨S16x8x1024, .f32⟩
  | .hbm, ⟨29, _⟩ => ⟨S16x8192, .f32⟩
  | .hbm, ⟨30, _⟩ => ⟨S16x1024x8, .f32⟩
  | .hbm, ⟨31, _⟩ => ⟨S16x1024x8, .f32⟩
  | .hbm, ⟨32, _⟩ => ⟨S16x1024x8, .bf16⟩
  | .hbm, ⟨33, _⟩ => ⟨S16x8x1024, .f32⟩
  | .hbm, ⟨34, _⟩ => ⟨S16x8x1024, .bf16⟩
  | .hbm, ⟨35, _⟩ => ⟨S1024x1024, .f32⟩
  | .hbm, ⟨36, _⟩ => ⟨S1024x1024, .bf16⟩
  | .hbm, ⟨37, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024, .f32⟩
  | .local _ .vmem, ⟨4, _⟩ => ⟨S1x1024x8, .bf16⟩
  | .local _ .vmem, ⟨5, _⟩ => ⟨S1x1024x8, .bf16⟩
  | .local _ .vmem, ⟨6, _⟩ => ⟨S1x8x1024, .bf16⟩
  | .local _ .vmem, ⟨7, _⟩ => ⟨S1x8x1024, .bf16⟩
  | .local _ .vmem, ⟨8, _⟩ => ⟨S1x1024x1024, .f32⟩
  | .local _ .vmem, ⟨9, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  transposes_S16384x128_S128x16384_1_0 : S16384x128.Transposes [1, 0] S128x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  slices_S16x16384_S16x8192_0_0 : S16x16384.Slices ![0, 0] S16x8192
  shapeCasts_S16x8192_S16x8x1024 : S16x8192.ShapeCasts S16x8x1024
  slices_S16x16384_S16x8192_0_8192 : S16x16384.Slices ![0, 8192] S16x8192
  shapeCasts_S16x8192_S16x1024x8 : S16x8192.ShapeCasts S16x1024x8
  transposes_S16x8x1024_S16x1024x8_0_2_1 : S16x8x1024.Transposes [0, 2, 1] S16x1024x8
  bitsLt_bf16_f32 : FTy.bits .bf16 < FTy.bits .f32
  transposes_S16x1024x8_S16x8x1024_0_2_1 : S16x1024x8.Transposes [0, 2, 1] S16x8x1024
  transposes_S1024x1024_S1024x1024_1_0 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S1024x1024_S1x1024x1024 : S1024x1024.ShapeCasts S1x1024x1024
  dot_S16x256_S256x128_S16x128_1_0_0_1_n_n_wf : DotDims.WF S16x256 S256x128 S16x128 [1] [0] [0] [1] [] []
  dot_S16x128_S128x16384_S16x16384_1_0_0_1_n_n_wf : DotDims.WF S16x128 S128x16384 S16x16384 [1] [0] [0] [1] [] []
  dot_S1024x1024_S1024x1024_S1024x1024_1_0_0_1_n_n_wf : DotDims.WF S1024x1024 S1024x1024 S1024x1024 [1] [0] [0] [1] [] []
  dot_S1024x1024_S1024x8_S1024x8_1_0_0_1_n_n_wf : DotDims.WF S1024x1024 S1024x8 S1024x8 [1] [0] [0] [1] [] []
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x8.size a ≤ S16x1024x8.size a
  hwx0_3 : ∀ i : grid0.Coords, EltTy.bits .bf16 = 32 ∨ (Rect.block (s := S16x1024x8) S1x1024x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1024.size a ≤ S16x8x1024.size a
  hwx0_4 : ∀ i : grid0.Coords, EltTy.bits .bf16 = 32 ∨ (Rect.block (s := S16x8x1024) S1x8x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S16x4096x1024.size a
  hwx0_5 : ∀ i : grid0.Coords, EltTy.bits .f32 = 32 ∨ (Rect.block (s := S16x4096x1024) S1x1024x1024.size (cc0_transform_5 i) (hinb0_5 i)).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x16384_S16x16384_1_0_0_1_n_n : DotDims S16x128 S128x16384 S16x16384 where
  lhsContracting := [1]
  rhsContracting := [0]
  lhsNonContracting := [0]
  rhsNonContracting := [1]
  lhsBatch := []
  rhsBatch := []
  wf := dot_S16x128_S128x16384_S16x16384_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x256 : Shape := ⟨2, ![16, 256]⟩
abbrev S1024x1024 : Shape := ⟨2, ![1024, 1024]⟩
abbrev S1024 : Shape := ⟨1, ![1024]⟩
abbrev S128x256 : Shape := ⟨2, ![128, 256]⟩
abbrev S128 : Shape := ⟨1, ![128]⟩
abbrev S16384x128 : Shape := ⟨2, ![16384, 128]⟩
abbrev S16384 : Shape := ⟨1, ![16384]⟩
abbrev S1x1x1024 : Shape := ⟨3, ![1, 1, 1024]⟩
abbrev S256x128 : Shape := ⟨2, ![256, 128]⟩
abbrev S16x128 : Shape := ⟨2, ![16, 128]⟩
abbrev S1x128 : Shape := ⟨2, ![1, 128]⟩
abbrev S_ : Shape := ⟨0, ![]⟩
abbrev S128x16384 : Shape := ⟨2, ![128, 16384]⟩
abbrev S16x16384 : Shape := ⟨2, ![16, 16384]⟩
abbrev S1x16384 : Shape := ⟨2, ![1, 16384]⟩
abbrev S16x8192 : Shape := ⟨2, ![16, 8192]⟩
abbrev S16x8x1024 : Shape := ⟨3, ![16, 8, 1024]⟩
abbrev S16x1024x8 : Shape := ⟨3, ![16, 1024, 8]⟩
abbrev S16x4096x8 : Shape := ⟨3, ![16, 4096, 8]⟩

abbrev nBuf : Space → Nat
  | .hbm => 41
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x256, .f32⟩
  | .hbm, ⟨2, _⟩ => ⟨S1024x1024, .f32⟩
  | .hbm, ⟨3, _⟩ => ⟨S1024, .f32⟩
  | .hbm, ⟨4, _⟩ => ⟨S128x256, .f32⟩
  | .hbm, ⟨5, _⟩ => ⟨S128, .f32⟩
  | .hbm, ⟨6, _⟩ => ⟨S16384x128, .f32⟩
  | .hbm, ⟨7, _⟩ => ⟨S16384, .f32⟩
  | .hbm, ⟨8, _⟩ => ⟨S16x4096x1024, .f32⟩
  | .hbm, ⟨9, _⟩ => ⟨S1x1x1024, .f32⟩
  | .hbm, ⟨10, _⟩ => ⟨S16x4096x1024, .f32⟩
  | .hbm, ⟨11, _⟩ => ⟨S16x4096x1024, .f32⟩
  | .hbm, ⟨12, _⟩ => ⟨S256x128, .f32⟩
  | .hbm, ⟨13, _⟩ => ⟨S16x128, .f32⟩
  | .hbm, ⟨14, _⟩ => ⟨S1x128, .f32⟩
  | .hbm, ⟨15, _⟩ => ⟨S16x128, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S128x16384, .f32⟩
  | .hbm, ⟨27, _⟩ => ⟨S16x16384, .f32⟩
  | .hbm, ⟨28, _⟩ => ⟨S1x16384, .f32⟩
  | .hbm, ⟨29, _⟩ => ⟨S16x16384, .f32⟩
  | .hbm, ⟨30, _⟩ => ⟨S16x16384, .f32⟩
  | .hbm, ⟨31, _⟩ => ⟨S16x8192, .f32⟩
  | .hbm, ⟨32, _⟩ => ⟨S16x8x1024, .f32⟩
  | .hbm, ⟨33, _⟩ => ⟨S16x8192, .f32⟩
  | .hbm, ⟨34, _⟩ => ⟨S16x1024x8, .f32⟩
  | .hbm, ⟨35, _⟩ => ⟨S16x4096x8, .f32⟩
  | .hbm, ⟨36, _⟩ => ⟨S16x4096x1024, .f32⟩
  | .hbm, ⟨37, _⟩ => ⟨S_, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  transposes_S16384x128_S128x16384_1_0 : S16384x128.Transposes [1, 0] S128x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  slices_S16x16384_S16x8192_0_0 : S16x16384.Slices ![0, 0] S16x8192
  shapeCasts_S16x8192_S16x8x1024 : S16x8192.ShapeCasts S16x8x1024
  slices_S16x16384_S16x8192_0_8192 : S16x16384.Slices ![0, 8192] S16x8192
  shapeCasts_S16x8192_S16x1024x8 : S16x8192.ShapeCasts S16x1024x8
  bcast_S_S16x4096x1024 : S_.BroadcastsInDim S16x4096x1024 (![] : Fin 0 → Fin S16x4096x1024.rank)
  dot_S16x4096x1024_S1024x1024_S16x4096x1024_2_1_01_0_n_n_wf : DotDims.WF S16x4096x1024 S1024x1024 S16x4096x1024 [2] [1] [0, 1] [0] [] []
  dot_S16x256_S256x128_S16x128_1_0_0_1_n_n_wf : DotDims.WF S16x256 S256x128 S16x128 [1] [0] [0] [1] [] []
  dot_S16x128_S128x16384_S16x16384_1_0_0_1_n_n_wf : DotDims.WF S16x128 S128x16384 S16x16384 [1] [0] [0] [1] [] []
  dot_S16x4096x1024_S16x8x1024_S16x4096x8_2_2_1_1_0_0_wf : DotDims.WF S16x4096x1024 S16x8x1024 S16x4096x8 [2] [2] [1] [1] [0] [0]
  dot_S16x4096x8_S16x1024x8_S16x4096x1024_2_2_1_1_0_0_wf : DotDims.WF S16x4096x8 S16x1024x8 S16x4096x1024 [2] [2] [1] [1] [0] [0]

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x16384_S16x16384_1_0_0_1_n_n : DotDims S16x128 S128x16384 S16x16384 where
  lhsContracting := [1]
  rhsContracting := [0]
  lhsNonContracting := [0]
  rhsNonContracting := [1]
  lhsBatch := []
  rhsBatch := []
  wf := dot_S16x128_S128x16384_S16x16384_1_0_0_1_n_n_wf
def dot_S16x4096x1024_S16x8x1024_S16x4096x8_2_2_1_1_0_0 : DotDims S16x4096x1024 S16x8x1024 S16x4096x8 where
  lhsContracting := [2]
  rhsContracting := [2]
  lhsNonContracting := [1]
  rhsNonContracting := [1]
  lhsBatch := [0]
  rhsBatch := [0]
  wf := dot_S16x4096x1024_S16x8x1024_S16x4096x8_2_2_1_1_0_0_wf
def dot_S16x4096x8_S16x1024x8_S16x4096x1024_2_2_1_1_0_0 : DotDims S16x4096x8 S16x1024x8 S16x4096x1024 where
  lhsContracting := [2]
  rhsContracting := [2]
  lhsNonContracting := [1]
  rhsNonContracting := [1]
  lhsBatch := [0]
  rhsBatch := [0]
  wf := dot_S16x4096x8_S16x1024x8_S16x4096x1024_2_2_1_1_0_0_wf

class Facts : Prop extends Facts₀ where

variable [Facts]
-- ==== Proof.Spec.lean ====
/-
  The function both programs compute, index by index, on the extended reals.

  A sample `b` carries a row `P b` of 16384 generated parameters.  Its first 8192 entries are an 8 x 1024 table
  `A b` (entry (r, i) at position r * 1024 + i), its last 8192 entries a 1024 x 8 table `B b` (entry (o, r) at
  position 8192 + o * 8 + r).  The output at (b, n, o) is the base linear map of row (b, n) of `x` plus the
  rank-8 correction through these two tables:

      (sum_i x[b,n,i] * W[o,i] + bias[o])  +  (sum_r (sum_i x[b,n,i] * A b [r,i]) * B b [o,r]) * 1 .

  The row `P` enters as a parameter: both programs build it by the same operations from the same arguments, so it is
  never opened.
-/
import Idealize.ShloMosaic.PureOps.Ideal
import Idealize.ShloMosaic.Lib.ValueIdx

noncomputable section

namespace Cert.LowRank

open Idealize.ShloMosaic Idealize.ShloMosaic.ValueIdx

abbrev SX : Shape := ⟨3, ![16, 4096, 1024]⟩
abbrev SW : Shape := ⟨2, ![1024, 1024]⟩
abbrev SBias : Shape := ⟨1, ![1024]⟩
abbrev SP : Shape := ⟨2, ![16, 16384]⟩

/-- Where entry (r, i) of the 8 x 1024 table sits in a sample's parameter row. -/
def downIdx (b : Fin 16) (r : Fin 8) (i : Fin 1024) : SP.Idx := ix2 b ⟨r.val * 1024 + i.val, by omega⟩

/-- Where entry (o, r) of the 1024 x 8 table sits in a sample's parameter row. -/
def upIdx (b : Fin 16) (o : Fin 1024) (r : Fin 8) : SP.Idx := ix2 b ⟨8192 + (o.val * 8 + r.val), by omega⟩

/-- The scale of the correction: the float literal one, kept as its bit pattern (the same word on both sides). -/
def scale : EReal := Ideal.ofBits .f32 0x3F800000#32

/-- The output at sample `b`, row `n`, column `o`. -/
def entry (x : SX.Idx → EReal) (W : SW.Idx → EReal) (bias : SBias.Idx → EReal) (P : SP.Idx → EReal)
    (b : Fin 16) (n : Fin 4096) (o : Fin 1024) : EReal :=
  ((∑ i : Fin 1024, x (ix3 b n i) * W (ix2 o i)) + bias (ix1 o))
    + (∑ r : Fin 8, (∑ i : Fin 1024, x (ix3 b n i) * P (downIdx b r i)) * P (upIdx b o r)) * scale

/-- The whole output array. -/
def G (x : SX.Idx → EReal) (W : SW.Idx → EReal) (bias : SBias.Idx → EReal) (P : SP.Idx → EReal) : SX.Idx → EReal :=
  fun j => entry x W bias P (j 0) (j 1) (j 2)

theorem G_apply (x : SX.Idx → EReal) (W : SW.Idx → EReal) (bias : SBias.Idx → EReal) (P : SP.Idx → EReal)
    (b : Fin 16) (n : Fin 4096) (o : Fin 1024) : G x W bias P (ix3 b n o) = entry x W bias P b n o := rfl

end Cert.LowRank

end
-- ==== Proof.RefSide.lean ====
/-
  The reference's result is `G` of its arguments and of the parameter rows it builds.

  Read backwards from the last addition: the base term is a contraction of `x` with `W` over the last axis of each,
  plus the bias broadcast along the first two axes; the correction is the literal one times a contraction over the
  rank axis of (a batched contraction of `x` with the first half of the parameter row, reshaped 8 x 1024) with the
  second half of the row, reshaped 1024 x 8.  A slice followed by a reshape reads the row at a position found by
  division with remainder by 8192; both reduce to the two position functions of the specification.  The one
  difference of arrangement is the side on which the literal one multiplies: commutativity.
-/
import proofs.«121982_j44684839747821_1_alg».proof.Proof.Gen.ReferenceIdeal.Read
import proofs.«121982_j44684839747821_1_alg».proof.Proof.Spec

noncomputable section

namespace Cert.LowRank.Ref

open Cert.ReferenceIdeal Cert.ReferenceIdeal.Read Idealize.ShloMosaic Idealize.ShloMosaic.ValueIdx Cert.LowRank

/-- The base contraction reads row (b, n) of `x` along its last axis. -/
theorem lidx_base (b : Fin 16) (n : Fin 4096) (o k : Fin 1024) : lidx_main_v0 (ix3 b n o) k = ix3 b n k :=
  funext fun a => Fin.ext (by match a with | ⟨0, _⟩ => rfl | ⟨1, _⟩ => rfl | ⟨2, _⟩ => rfl)

/-- The base contraction reads row `o` of `W` along its last axis. -/
theorem ridx_base (b : Fin 16) (n : Fin 4096) (o k : Fin 1024) : ridx_main_v0 (ix3 b n o) k = ix2 o k :=
  funext fun a => Fin.ext (by match a with | ⟨0, _⟩ => rfl | ⟨1, _⟩ => rfl)

/-- The bias, broadcast twice, is read at the output's column. -/
theorem idx_bias (b : Fin 16) (n : Fin 4096) (o : Fin 1024) : idx_main_v1 (idx_main_v2 (ix3 b n o)) = ix1 o :=
  funext fun a => Fin.ext (by match a with | ⟨0, _⟩ => rfl)

/-- The down-projection reads the same row (b, n) of `x`. -/
theorem lidx_down (b : Fin 16) (n : Fin 4096) (o : Fin 1024) (r : Fin 8) (k : Fin 1024) :
    lidx_main_v19 (lidx_main_v20 (ix3 b n o) r) k = ix3 b n k :=
  funext fun a => Fin.ext (by match a with | ⟨0, _⟩ => rfl | ⟨1, _⟩ => rfl | ⟨2, _⟩ => rfl)

/-- Entry (r, k) of the 8 x 1024 table: the first half of the row, at position r * 1024 + k. -/
theorem idx_down (b : Fin 16) (n : Fin 4096) (o : Fin 1024) (r : Fin 8) (k : Fin 1024) :
    idx_main_v15 (idx_main_v16 (ridx_main_v19 (lidx_main_v20 (ix3 b n o) r) k)) = downIdx b r k :=
  funext fun a => Fin.ext (by
    have hb := b.isLt; have hr := r.isLt; have hk := k.isLt
    match a with
    | ⟨0, _⟩ => show ((b.val * 8 + r.val) * 1024 + k.val) / 8192 = b.val; omega
    | ⟨1, _⟩ => show ((b.val * 8 + r.val) * 1024 + k.val) % 8192 = r.val * 1024 + k.val; omega)

/-- Entry (o, r) of the 1024 x 8 table: the second half of the row, at position 8192 + o * 8 + r. -/
theorem idx_up (b : Fin 16) (n : Fin 4096) (o : Fin 1024) (r : Fin 8) :
    idx_main_v17 (idx_main_v18 (ridx_main_v20 (ix3 b n o) r)) = upIdx b o r :=
  funext fun a => Fin.ext (by
    have hb := b.isLt; have hr := r.isLt; have ho := o.isLt
    match a with
    | ⟨0, _⟩ => show ((b.val * 1024 + o.val) * 8 + r.val) / 8192 = b.val; omega
    | ⟨1, _⟩ => show 8192 + ((b.val * 1024 + o.val) * 8 + r.val) % 8192 = 8192 + (o.val * 8 + r.val); omega)

/-- The reference's last stage is `G` at the parameter rows (its stage 14). -/
theorem result_eq (x0 : (⟨S16x4096x1024, .f32⟩ : BufTy).Contents (Elt Ideal)) (x1 : (⟨S16x256, .f32⟩ : BufTy).Contents (Elt Ideal))
    (x2 : (⟨S1024x1024, .f32⟩ : BufTy).Contents (Elt Ideal)) (x3 : (⟨S1024, .f32⟩ : BufTy).Contents (Elt Ideal))
    (x4 : (⟨S128x256, .f32⟩ : BufTy).Contents (Elt Ideal)) (x5 : (⟨S128, .f32⟩ : BufTy).Contents (Elt Ideal))
    (x6 : (⟨S16384x128, .f32⟩ : BufTy).Contents (Elt Ideal)) (x7 : (⟨S16384, .f32⟩ : BufTy).Contents (Elt Ideal)) :
    val_main_v23 (F := Ideal) x0 x1 x2 x3 x4 x5 x6 x7 = G x0 x2 x3 (val_main_v14 (F := Ideal) x1 x4 x5 x6 x7) := by
  funext j
  obtain ⟨b, n, o, rfl⟩ : ∃ (b : Fin 16) (n : Fin 4096) (o : Fin 1024), j = ix3 b n o := ⟨j 0, j 1, j 2, eq_ix3 j⟩
  rw [G_apply, val_main_v23_apply, val_main_v3_apply, val_main_v0_apply, val_main_v2_apply, val_main_v1_apply,
    val_main_v22_apply, val_main_v21_apply, val_main_cst_apply, val_main_v20_apply]
  simp only [val_main_v19_apply, val_main_v18_apply, val_main_v17_apply, val_main_v16_apply, val_main_v15_apply,
    lidx_base, ridx_base, idx_bias, lidx_down, idx_down, idx_up, Ideal.addf_def, Ideal.mulf_def, Ideal.ofBits_def]
  unfold entry scale
  rw [mul_comm (Ideal.ofBits .f32 0x3F800000#32)]

end Cert.LowRank.Ref

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KernelPay.lean ====
/-
  What the kernel's body stores, read at an entry, on the extended reals.

  The body loads a 1 x 1024 x 1024 block `x` of the input, the transposed base weights `w` (1024 x 1024, indexed
  (i, o)), the bias, a 1 x 1024 x 8 block `a` (indexed (i, r)) and a 1 x 8 x 1024 block `bm` (indexed (r, o)).  Changes
  of float format are the identity, a product into the zero accumulator is a plain sum, and dropping or adding a
  leading unit axis only renames the index; so the stored block at (u, p, q) is

      (sum_i x[0,p,i] * w[i,q] + bias[q])  +  (sum_r (sum_i x[0,p,i] * a[0,i,r]) * bm[0,r,q]) * 1 .
-/
import proofs.«121982_j44684839747821_1_alg».proof.Proof.Gen.KernelIdeal.Skeleton
import proofs.«121982_j44684839747821_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.LowRank.Body

open Cert.KernelIdeal Cert.KernelIdeal.Gen Idealize.ShloMosaic Idealize.ShloMosaic.ValueIdx Cert.LibMatmulPlain

/-- The stored block of the body, at entry (u, p, q), from the five loaded blocks. -/
theorem pay_apply (x : FVec Ideal S1x1024x1024 .f32) (w : FVec Ideal S1024x1024 .bf16) (bias : FVec Ideal S1024 .f32)
    (a : FVec Ideal S1x1024x8 .bf16) (bm : FVec Ideal S1x8x1024 .bf16) (u : Fin 1) (p q : Fin 1024) :
    k0_pay1 (F := Ideal) x w bias a bm (ix3 u p q)
      = ((∑ i : Fin 1024, x (ix3 (0 : Fin 1) p i) * w (ix2 i q)) + bias (ix1 q))
        + (∑ r : Fin 8, (∑ i : Fin 1024, x (ix3 (0 : Fin 1) p i) * a (ix3 (0 : Fin 1) i r)) * bm (ix3 (0 : Fin 1) r q))
          * Ideal.ofBits .f32 0x3F800000#32 := by
  unfold k0_pay1
  refine (shapeCast_ab_1ab_apply _ shapeCasts_S1024x1024_S1x1024x1024 u p q).trans ?_
  show (matmul dot_S1024x1024_S1024x1024_S1024x1024_1_0_0_1_n_n none _ _ (constant S1024x1024 .f32 0x00000000#32) (ix2 p q)
        + broadcastTo S1024x1024 (shapeCast S1x1024 bias shapeCasts_S1024_S1x1024) broadcasts_S1x1024_S1024x1024 (ix2 p q))
      + matmul dot_S1024x8_S8x1024_S1024x1024_1_0_0_1_n_n none _ _ (constant S1024x1024 .f32 0x00000000#32) (ix2 p q)
        * Ideal.ofBits .f32 0x3F800000#32 = _
  rw [matmul_zero_apply _ rfl rfl rfl rfl rfl rfl, matmul_zero_apply _ rfl rfl rfl rfl rfl rfl,
    broadcastTo_1b_ab_apply, shapeCast_a_1a_apply]
  simp only [truncf_apply, shapeCast_1ab_ab_apply, shapeCast_self,
    matmul_zero_apply dot_S1024x1024_S1024x8_S1024x8_1_0_0_1_n_n rfl rfl rfl rfl rfl rfl]

end Cert.LowRank.Body

end
-- ==== Proof.KernelHost.lean ====
/-
  What the kernel's program hands to its region, read at an entry.

  Before the region the program builds the parameter rows `P` (the same operations, on the same arguments, as the
  reference's stage 14 — taken here as that function, closed) and re-lays them: the first half of each row, viewed
  8 x 1024 and transposed, is the block `a` with a[b,i,r] = P[b, r * 1024 + i]; the second half, viewed 1024 x 8 and
  transposed, is the block `bm` with bm[b,r,o] = P[b, 8192 + o * 8 + r]; the base weights are transposed,
  w[i,o] = W[o,i].  Changes of float format are the identity.
-/
import proofs.«121982_j44684839747821_1_alg».proof.Proof.Gen.KernelIdeal.Frame
import proofs.«121982_j44684839747821_1_alg».proof.Proof.Gen.ReferenceIdeal.Read
import proofs.«121982_j44684839747821_1_alg».proof.Proof.Spec
import Idealize.ShloMosaic.Lib.StableHlo.Run
import Idealize.ShloMosaic.Lib.ValueLayout
import Idealize.ShloMosaic.Lib.Pipeline.Value

noncomputable section

namespace Cert.LowRank.Host

open Cert.KernelIdeal Cert.KernelIdeal.Gen Idealize.ShloMosaic Idealize.ShloMosaic.ValueIdx Idealize.ShloMosaic.TcCoe
open Idealize.SL.Sem Idealize.ShloMosaic.StableHlo Cert.LowRank

variable (m : (ℓ : Loc nD τ sig) → Buf (Elt Ideal) ℓ)

/-- The parameter rows, as a function of the kernel program's arguments. -/
def params (c : Dev nD) : SP.Idx → EReal :=
  Cert.ReferenceIdeal.Read.val_main_v14 (F := Ideal) (m ((c : Thread nD τ).loc main_arg1)) (m ((c : Thread nD τ).loc main_arg4))
    (m ((c : Thread nD τ).loc main_arg5)) (m ((c : Thread nD τ).loc main_arg6)) (m ((c : Thread nD τ).loc main_arg7))

/-- The region finds the base weights transposed. -/
theorem V_weights (c : Dev nD) : (V m c main_v20 : S1024x1024.Idx → EReal)
    = truncf (F := Ideal) .bf16 (transpose S1024x1024 [1, 0] (m ((c : Thread nD τ).loc main_arg2)) transposes_S1024x1024_S1024x1024_1_0) bitsLt_bf16_f32 := by
  dsimp only [V]
  simp only [hostOps0, hostOps0_1, hostOps0_2, List.flatten_cons, List.flatten_nil, List.append_nil, List.cons_append, List.nil_append]
  after_results_simp

/-- The region finds the first half of each parameter row viewed 8 x 1024 and transposed. -/
theorem V_down (c : Dev nD) : (V m c main_v16 : S16x1024x8.Idx → EReal)
    = truncf (F := Ideal) .bf16 (transpose S16x1024x8 [0, 2, 1] (shapeCast S16x8x1024 (extractStridedSlice S16x8192 ![0, 0] (params m c)
        slices_S16x16384_S16x8192_0_0) shapeCasts_S16x8192_S16x8x1024) transposes_S16x8x1024_S16x1024x8_0_2_1) bitsLt_bf16_f32 := by
  dsimp only [V]
  simp only [hostOps0, hostOps0_1, hostOps0_2, List.flatten_cons, List.flatten_nil, List.append_nil, List.cons_append, List.nil_append]
  after_results_simp
  rfl

/-- The region finds the second half of each parameter row viewed 1024 x 8 and transposed. -/
theorem V_up (c : Dev nD) : (V m c main_v18 : S16x8x1024.Idx → EReal)
    = truncf (F := Ideal) .bf16 (transpose S16x8x1024 [0, 2, 1] (shapeCast S16x1024x8 (extractStridedSlice S16x8192 ![0, 8192] (params m c)
        slices_S16x16384_S16x8192_0_8192) shapeCasts_S16x8192_S16x1024x8) transposes_S16x1024x8_S16x8x1024_0_2_1) bitsLt_bf16_f32 := by
  dsimp only [V]
  simp only [hostOps0, hostOps0_1, hostOps0_2, List.flatten_cons, List.flatten_nil, List.append_nil, List.cons_append, List.nil_append]
  after_results_simp
  rfl

/-- w[i,o] = W[o,i]. -/
theorem weights_apply (c : Dev nD) (i o : Fin 1024) :
    V m c main_v20 (ix2 i o) = m ((c : Thread nD τ).loc main_arg2) (ix2 o i) := by
  rw [V_weights, truncf_apply]
  exact transpose_ix2_apply _ transposes_S1024x1024_S1024x1024_1_0 i o

/-- a[b,i,r] = P[b, r * 1024 + i]. -/
theorem down_apply (c : Dev nD) (b : Fin 16) (i : Fin 1024) (r : Fin 8) :
    V m c main_v16 (ix3 b i r) = params m c (downIdx b r i) := by
  rw [V_down, truncf_apply]
  refine (transpose_ix3_021_apply _ transposes_S16x8x1024_S16x1024x8_0_2_1 b i r).trans ?_
  refine (shapeCast_apply _ shapeCasts_S16x8192_S16x8x1024 (ix3 b r i) (ix2 b ⟨r.val * 1024 + i.val, by omega⟩) ?_).trans ?_
  · rw [Shape.rowMajor_val_two, Shape.rowMajor_val_three]
    show b.val * 8192 + (r.val * 1024 + i.val) = (b.val * 8 + r.val) * 1024 + i.val
    omega
  · exact slice2_axis1_apply 0 _ slices_S16x16384_S16x8192_0_0 b _ _ (Nat.zero_add _).symm

/-- bm[b,r,o] = P[b, 8192 + o * 8 + r]. -/
theorem up_apply (c : Dev nD) (b : Fin 16) (r : Fin 8) (o : Fin 1024) :
    V m c main_v18 (ix3 b r o) = params m c (upIdx b o r) := by
  rw [V_up, truncf_apply]
  refine (transpose_ix3_021_apply _ transposes_S16x1024x8_S16x8x1024_0_2_1 b r o).trans ?_
  refine (shapeCast_apply _ shapeCasts_S16x8192_S16x1024x8 (ix3 b o r) (ix2 b ⟨o.val * 8 + r.val, by omega⟩) ?_).trans ?_
  · rw [Shape.rowMajor_val_two, Shape.rowMajor_val_three]
    show b.val * 8192 + (o.val * 8 + r.val) = (b.val * 1024 + o.val) * 8 + r.val
    omega
  · exact slice2_axis1_apply 8192 _ slices_S16x16384_S16x8192_0_8192 b _ _ rfl

end Cert.LowRank.Host

end
-- ==== Proof.KernelFinal.lean ====
/-
  The kernel's output array is `G`.

  The grid has 16 x 4 points.  Point (b, s) reads rows 1024 s … 1024 s + 1023 of sample `b` of the input, the whole
  transposed weights and bias, sample `b`'s two parameter tables, and writes the same rows of sample `b` of the
  output.  So the block a point writes is the restriction of `G` to those rows: substitute what each loaded block is
  (an entry of the input, of `W` transposed, of the bias, of the parameter row at the down or up position) into the
  body's stored value.  The 64 blocks tile the output array (row `n` of sample `b` is in the block of point
  (b, n / 1024)), hence the array ends equal to `G` everywhere.
-/
import proofs.«121982_j44684839747821_1_alg».proof.Proof.Gen.KernelIdeal.Value
import proofs.«121982_j44684839747821_1_alg».proof.Proof.KernelPay
import proofs.«121982_j44684839747821_1_alg».proof.Proof.KernelHost
import proofs.«121982_j44684839747821_1_alg».proof.Proof.Spec

noncomputable section

namespace Cert.LowRank.Kernel

open Cert.KernelIdeal Cert.KernelIdeal.Gen Idealize.ShloMosaic Idealize.ShloMosaic.ValueIdx Idealize.ShloMosaic.TcCoe
open Idealize.SL.Sem Cert.LowRank
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output array the kernel's program ends with, on core `c`. -/
def out (c : Dev nD) : SX.Idx → EReal :=
  G (m ((c : Thread nD τ).loc main_arg0)) (m ((c : Thread nD τ).loc main_arg2)) (m ((c : Thread nD τ).loc main_arg3)) (Host.params m c)

/-- The block index maps over the grid: the input and the two tables follow the output's sample, the input also its
    row block; the weights and the bias stay put; the output's sample is below 16, its row block below 4. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 15 ∧ win0_5.index t (1 : Fin 3) ≤ 3 ∧ win0_5.index t (2 : Fin 3) = 0 :=
  (by decide +kernel : ∀ t : Fin grid0.N, _)

/-- Every (sample, row block) pair is some point's output block. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- The input block at a point: rows of one sample of `x`. -/
theorem x_blk (c : Dev nD) (t : Fin cfg0.N) (b : Fin 16) (n : Fin 4096) (p i : Fin 1024)
    (hb : win0_0.index t (0 : Fin 3) = b.val) (hn : win0_0.index t (1 : Fin 3) * 1024 + p.val = n.val)
    (h2 : win0_0.index t (2 : Fin 3) = 0) :
    (iblk m c 0 t : Vec Ideal S1x1024x1024 .f32) (ix3 (0 : Fin 1) p i) = m ((c : Thread nD τ).loc main_arg0) (ix3 b n i) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 1024 + 1 * p.val = n.val; omega
  | ⟨2, _⟩ => show win0_0.index t (2 : Fin 3) * 1024 + 1 * i.val = i.val; omega

/-- The weights block at a point: all of `W`, transposed. -/
theorem w_blk (c : Dev nD) (t : Fin cfg0.N) (i o : Fin 1024)
    (h0 : win0_1.index t (0 : Fin 2) = 0) (h1 : win0_1.index t (1 : Fin 2) = 0) :
    (iblk m c 1 t : Vec Ideal S1024x1024 .bf16) (ix2 i o) = m ((c : Thread nD τ).loc main_arg2) (ix2 o i) := by
  unfold iblk
  rw [View.read_apply]
  show V m c main_v20 _ = _
  refine Eq.trans (congrArg (V m c main_v20) (funext fun a => Fin.ext ?_)) (Host.weights_apply m c i o)
  match a with
  | ⟨0, _⟩ => show win0_1.index t (0 : Fin 2) * 1024 + 1 * i.val = i.val; omega
  | ⟨1, _⟩ => show win0_1.index t (1 : Fin 2) * 1024 + 1 * o.val = o.val; omega

/-- The bias block at a point: all of the bias. -/
theorem bias_blk (c : Dev nD) (t : Fin cfg0.N) (o : Fin 1024) (h0 : win0_2.index t (0 : Fin 1) = 0) :
    (iblk m c 2 t : Vec Ideal S1024 .f32) (ix1 o) = m ((c : Thread nD τ).loc main_arg3) (ix1 o) := by
  unfold iblk
  rw [View.read_apply]
  show V m c main_arg3 _ = _
  rw [V_main_arg3]
  refine congrArg (m ((c : Thread nD τ).loc main_arg3)) (funext fun a => Fin.ext ?_)
  match a with
  | ⟨0, _⟩ => show win0_2.index t (0 : Fin 1) * 1024 + 1 * o.val = o.val; omega

/-- The down table's block at a point: the sample's 8 x 1024 table, transposed. -/
theorem down_blk (c : Dev nD) (t : Fin cfg0.N) (b : Fin 16) (i : Fin 1024) (r : Fin 8)
    (hb : win0_3.index t (0 : Fin 3) = b.val) (h1 : win0_3.index t (1 : Fin 3) = 0) (h2 : win0_3.index t (2 : Fin 3) = 0) :
    (iblk m c 3 t : Vec Ideal S1x1024x8 .bf16) (ix3 (0 : Fin 1) i r) = Host.params m c (downIdx b r i) := by
  unfold iblk
  rw [View.read_apply]
  show V m c main_v16 _ = _
  refine Eq.trans (congrArg (V m c main_v16) (funext fun a => Fin.ext ?_)) (Host.down_apply m c b i r)
  match a with
  | ⟨0, _⟩ => show win0_3.index t (0 : Fin 3) * 1 + 1 * 0 = b.val; omega
  | ⟨1, _⟩ => show win0_3.index t (1 : Fin 3) * 1024 + 1 * i.val = i.val; omega
  | ⟨2, _⟩ => show win0_3.index t (2 : Fin 3) * 8 + 1 * r.val = r.val; omega

/-- The up table's block at a point: the sample's 1024 x 8 table, transposed. -/
theorem up_blk (c : Dev nD) (t : Fin cfg0.N) (b : Fin 16) (r : Fin 8) (o : Fin 1024)
    (hb : win0_4.index t (0 : Fin 3) = b.val) (h1 : win0_4.index t (1 : Fin 3) = 0) (h2 : win0_4.index t (2 : Fin 3) = 0) :
    (iblk m c 4 t : Vec Ideal S1x8x1024 .bf16) (ix3 (0 : Fin 1) r o) = Host.params m c (upIdx b o r) := by
  unfold iblk
  rw [View.read_apply]
  show V m c main_v18 _ = _
  refine Eq.trans (congrArg (V m c main_v18) (funext fun a => Fin.ext ?_)) (Host.up_apply m c b r o)
  match a with
  | ⟨0, _⟩ => show win0_4.index t (0 : Fin 3) * 1 + 1 * 0 = b.val; omega
  | ⟨1, _⟩ => show win0_4.index t (1 : Fin 3) * 8 + 1 * r.val = r.val; omega
  | ⟨2, _⟩ => show win0_4.index t (2 : Fin 3) * 1024 + 1 * o.val = o.val; omega

/-- The entry the body stores at (u, p, q) of a point's block is `G` at the array index of that entry. -/
theorem point_eq (c : Dev nD) (t : Fin cfg0.N) (u : Fin 1) (p q : Fin 1024) :
    k0_pay1 (F := Ideal) (iblk m c 0 t) (iblk m c 1 t) (iblk m c 2 t) (iblk m c 3 t) (iblk m c 4 t) (ix3 u p q)
      = out m c (((cfg0.win 5).blk t).view.emb (ix3 u p q)) := by
  obtain ⟨e00, e01, e02, e10, e11, e20, e30, e31, e32, e40, e41, e42, hb5, hs5, e52⟩ := idx_facts t
  have hu : u.val = 0 := by omega
  have hp := p.isLt
  let b : Fin 16 := ⟨win0_5.index t (0 : Fin 3), by omega⟩
  let n : Fin 4096 := ⟨win0_5.index t (1 : Fin 3) * 1024 + p.val, by omega⟩
  have he : ((cfg0.win 5).blk t).view.emb (ix3 u p q) = ix3 b n q := funext fun a => Fin.ext (by
    match a with
    | ⟨0, _⟩ => show win0_5.index t (0 : Fin 3) * 1 + 1 * u.val = win0_5.index t (0 : Fin 3); omega
    | ⟨1, _⟩ => show win0_5.index t (1 : Fin 3) * 1024 + 1 * p.val = win0_5.index t (1 : Fin 3) * 1024 + p.val; omega
    | ⟨2, _⟩ => show win0_5.index t (2 : Fin 3) * 1024 + 1 * q.val = q.val; omega)
  have hx : ∀ i : Fin 1024, (iblk m c 0 t : Vec Ideal S1x1024x1024 .f32) (ix3 (0 : Fin 1) p i)
      = m ((c : Thread nD τ).loc main_arg0) (ix3 b n i) := fun i => x_blk m c t b n p i e00 (by rw [e01]) e02
  have hw : ∀ i : Fin 1024, (iblk m c 1 t : Vec Ideal S1024x1024 .bf16) (ix2 i q)
      = m ((c : Thread nD τ).loc main_arg2) (ix2 q i) := fun i => w_blk m c t i q e10 e11
  have hbias : (iblk m c 2 t : Vec Ideal S1024 .f32) (ix1 q) = m ((c : Thread nD τ).loc main_arg3) (ix1 q) :=
    bias_blk m c t q e20
  have hd : ∀ (i : Fin 1024) (r : Fin 8), (iblk m c 3 t : Vec Ideal S1x1024x8 .bf16) (ix3 (0 : Fin 1) i r)
      = Host.params m c (downIdx b r i) := fun i r => down_blk m c t b i r e30 e31 e32
  have hup : ∀ r : Fin 8, (iblk m c 4 t : Vec Ideal S1x8x1024 .bf16) (ix3 (0 : Fin 1) r q)
      = Host.params m c (upIdx b q r) := fun r => up_blk m c t b r q e40 e41 e42
  rw [he]
  refine (Body.pay_apply (iblk m c 0 t) (iblk m c 1 t) (iblk m c 2 t) (iblk m c 3 t) (iblk m c 4 t) u p q).trans ?_
  simp only [hx, hw, hbias, hd, hup]
  rfl

/-- What a point writes back is its block of `G`. -/
theorem flushed_eq (c : Dev nD) (t : Fin cfg0.N) :
    (dats m 0 c).flushed 5 t = ((cfg0.win 5).blk t).view.read (Elt Ideal) (out m c) := by
  rw [Value.flushed5]
  unfold out0_5
  rw [View.canon_unit_zero hz3]
  simp only [View.ld_unit_zero (S := S1x1024x1024) hz3, View.ld_unit_zero (S := S1024x1024) hz2,
    View.ld_unit_zero (S := S1024) hz1, View.ld_unit_zero (S := S1x1024x8) hz3, View.ld_unit_zero (S := S1x8x1024) hz3]
  funext j
  obtain ⟨u, p, q, rfl⟩ : ∃ (u : Fin 1) (p q : Fin 1024), j = ix3 u p q := ⟨j 0, j 1, j 2, eq_ix3 j⟩
  exact point_eq m c t u p q

/-- An index of the output array is in a point's block iff each coordinate is in the block's range on its axis. -/
theorem mem_blk (t : Fin cfg0.N) (i : S16x4096x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v21).slice (win0_5.rect t)).set ↔ _
  rw [View.set_slice_whole, Rect.mem_set_unit]
  exact Iff.rfl

/-- The 64 blocks cover the output array. -/
theorem cover (i : S16x4096x1024.Idx) :
    ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- The output array after the run is `G`. -/
theorem final (c : Dev nD) : (dats m 0 c).arrAt 5 cfg0.N = out m c :=
  (dats m 0 c).arrAt_eq_of_cover 5 (out m c) (fun t _ => flushed_eq m c t) cover

/-- The kernel program's run: the result array ends at `G`, the arguments unchanged. -/
theorem run : θ_run defs (onTc (τ := τ) (main (F := Ideal))) ⟨m, fun _ => 0, ρ⟩ fun r => ∀ c : Dev nD,
      r.2.mem ((c : Thread nD τ).loc main_v21) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.LowRank.Kernel

end
-- ==== Proof.lean ====
/-
  A per-sample low-rank correction added to a shared linear layer, fused in one kernel, against its plain statement.

  Both programs compute, for sample `b`, row `n` and output column `o`,

      (sum_i x[b,n,i] * W[o,i] + bias[o])  +  (sum_r (sum_i x[b,n,i] * A b [r,i]) * B b [o,r]) * 1 ,

  where the tables `A b` (8 x 1024) and `B b` (1024 x 8) are the two halves of a row of parameters that a small
  two-layer network produces from the sample's style vector.  That network is the same sequence of operations in both
  programs, so its result is carried as one closed function of the arguments.  The kernel transposes the weights and
  the two tables on the way in, tiles the rows in blocks of 1024, rounds some operands to a shorter float format
  (the identity on the extended reals) and multiplies by the literal one on the right where the reference multiplies on
  the left.  The sums run over the same index sets in the same order; the only law used is commutativity of the product,
  which holds on all extended reals, so the finiteness of the inputs is not needed.

  The frames: the kernel programs' are generated whole; the reference's is its generated run with the result dropped.
  No operation was rewritten when the kernel was idealized, so that conjunct is trivial.
-/
import proofs.«121982_j44684839747821_1_alg».proof.Defs
import proofs.«121982_j44684839747821_1_alg».proof.Proof.Gen.Kernel
import proofs.«121982_j44684839747821_1_alg».proof.Proof.Gen.Kernel.Skeleton
import proofs.«121982_j44684839747821_1_alg».proof.Proof.Gen.Kernel.Launch
import proofs.«121982_j44684839747821_1_alg».proof.Proof.Gen.Kernel.Points
import proofs.«121982_j44684839747821_1_alg».proof.Proof.Gen.Kernel.Frame
import proofs.«121982_j44684839747821_1_alg».proof.Proof.Gen.KernelIdeal
import proofs.«121982_j44684839747821_1_alg».proof.Proof.Gen.KernelIdeal.Skeleton
import proofs.«121982_j44684839747821_1_alg».proof.Proof.Gen.KernelIdeal.Launch
import proofs.«121982_j44684839747821_1_alg».proof.Proof.Gen.KernelIdeal.Points
import proofs.«121982_j44684839747821_1_alg».proof.Proof.Gen.KernelIdeal.Frame
import proofs.«121982_j44684839747821_1_alg».proof.Proof.Gen.ReferenceIdeal
import proofs.«121982_j44684839747821_1_alg».proof.Proof.Gen.KernelIdeal.Value
import proofs.«121982_j44684839747821_1_alg».proof.Proof.Gen.ReferenceIdeal.Run
import proofs.«121982_j44684839747821_1_alg».proof.Proof.Gen.ReferenceIdeal.Read
import proofs.«121982_j44684839747821_1_alg».proof.Proof.Gen.Pre_finite_inputs
import proofs.«121982_j44684839747821_1_alg».proof.Proof.RefSide
import proofs.«121982_j44684839747821_1_alg».proof.Proof.KernelFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the input, the weights, the bias and the parameter rows; the
    arguments agree, so the two arrays are equal. -/
theorem algebraic : Cert.algebraic_KernelIdeal_ReferenceIdeal := by
  intro m ρ m' ρ' _ hagree
  refine ⟨fun c => Cert.LowRank.Kernel.out m c, Cert.LowRank.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v23_eq, Cert.LowRank.Ref.result_eq, e0, e1, e2, e3, e4, e5, e6, e7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
